-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 122
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x128, .f32⟩
  | .hbm, ⟨67, _⟩ => ⟨S100000, .i32⟩
  | .hbm, ⟨68, _⟩ => ⟨S1700000, .i32⟩
  | .hbm, ⟨69, _⟩ => ⟨S1700000, .i32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S5000x128_S128x64_S5000x64_1_0_0_1_n_n_wf : DotDims.WF S5000x128 S128x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x128, .f32⟩
  | .hbm, ⟨67, _⟩ => ⟨S100000, .i32⟩
  | .hbm, ⟨68, _⟩ => ⟨S1700000, .i32⟩
  | .hbm, ⟨69, _⟩ => ⟨S1700000, .i32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel program's run with its two results named.

  The program is nine segments: host operations, the encoder's dense product as a pipelined kernel, the
  encoder layer's host operations, the decoder's dense product as a second kernel, and the decoder
  layer's host operations. Its run ends with every unscoped buffer at the contents the segments leave
  one after another (the fold `W9`); so the two result buffers end at `W9` read at their references, and
  the six argument buffers end as launched. What `W9` holds there is computed in the modules that follow.
-/
import proofs.«120203_j69320772157915_1_alg».proof.Proof.Gen.KernelIdeal.Frame

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the embedding and the reconstruction end at
    what the last segment boundary holds at their buffers, and the arguments end as launched. -/
theorem run_results : θ_run defs (onTc (τ := τ) (main (F := F))) ⟨m, fun _ => 0, ρ⟩ (fun r => ∀ c : Dev nD,
      r.2.mem ((c.tc : Thread nD τ).loc main_v46) = W9 m ρ c (Proc.devRef .tc main_v46)
      ∧ r.2.mem ((c.tc : Thread nD τ).loc main_v89) = W9 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v46 (by decide)),
       h c _ (mem_uc main_v89 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.Gcn

end
-- ==== Proof.Layer.lean ====
/-
  One graph-convolution layer after its dense product, as a function of the product.

  Both programs compute a layer in the same way once the product h = x · W is there. With s and d the
  source and target ends of the 1,600,000 edges, each followed by the node numbers 0 … 99,999 (a self
  loop per node), the layer is

      out[n, :] = (sum over the positions e with d[e] = n of  h[s[e], :] · weight[e])  +  bias,
      weight[e] = dinv[s[e]] · dinv[d[e]],   dinv[n] = deg[n] > 0 ? 1 / sqrt (deg[n]) : 0,
      deg[n]    = the number of positions e with d[e] = n  (a sum of ones),

  every gather reading a negative index from the end of the axis. Nothing below opens these operations:
  a layer is carried as ONE function of the product h, the two rows of the edge list and the bias, so
  that two programs which agree on h agree on the layer's result.
-/
import proofs.«120203_j69320772157915_1_alg».proof.Proof.Gen.KernelIdeal

noncomputable section

namespace Cert.Gcn

open Cert.KernelIdeal Cert.KernelIdeal.Gen Idealize.ShloMosaic

variable {F : FTy → Type} [FloatOps F]

/-- Row 0 of the edge list (the sources) as a flat vector of 1,600,000 words. -/
def edgeSources (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list (the targets) as a flat vector of 1,600,000 words. -/
def edgeTargets (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The edge ends followed by the node numbers 0 … 99,999: one self loop per node. -/
def withLoops (v : (⟨S1600000, .i32⟩ : BufTy).Contents (Elt F)) : (⟨S1700000, .i32⟩ : BufTy).Contents (Elt F) :=
  concatenate S1700000 0 [⟨S1600000, v⟩, ⟨S100000, (iotaInDim S100000 32 0)⟩] concatenates_S1600000_S100000_S1700000_d0

/-- A negative index counts from the end of an axis of 100,000. -/
def fromEnd (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- The degree of every node: ones added up at the targets. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- One over the square root of the degree where the degree is positive, zero elsewhere. -/
def invSqrtDegree (d : (⟨S1700000, .i32⟩ : BufTy).Contents (Elt F)) : (⟨S100000, .f32⟩ : BufTy).Contents (Elt F) :=
  select (cmpf (F := F) .ogt (degree d) (broadcastInDim S100000 ![] bcast_S_S100000 (constant S_ .f32 0x00000000#32)))
    (Host.rsqrt (degree d))
    (broadcastInDim S100000 ![] bcast_S_S100000 (id (constant S_ .f32 0x00000000#32)))

/-- The weight of every position: the product of the two ends' inverse square-root degrees. -/
def edgeWeight (s d : (⟨S1700000, .i32⟩ : BufTy).Contents (Elt F)) : (⟨S1700000, .f32⟩ : BufTy).Contents (Elt F) :=
  mulf
    (Host.gather gather_S100000_S1700000x1_S1700000_n_0_n_n_0_1_1 (invSqrtDegree d)
      (broadcastInDim S1700000x1 ![0] bcast_S1700000_S1700000x1_0 (fromEnd s)))
    (Host.gather gather_S100000_S1700000x1_S1700000_n_0_n_n_0_1_1 (invSqrtDegree d)
      (broadcastInDim S1700000x1 ![0] bcast_S1700000_S1700000x1_0 (fromEnd d)))

/-- The encoder layer after its product `h` (100,000 × 64): weighted rows of `h` added up at the targets, plus the bias. -/
def aggregate64 (h : (⟨S100000x64, .f32⟩ : BufTy).Contents (Elt F)) (s d : (⟨S1700000, .i32⟩ : BufTy).Contents (Elt F))
    (b : (⟨S64, .f32⟩ : BufTy).Contents (Elt F)) : (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf
        (Host.gather gather_S100000x64_S1700000x1_S1700000x64_1_0_n_n_0_1_164 h
          (broadcastInDim S1700000x1 ![0] bcast_S1700000_S1700000x1_0 (fromEnd s)))
        (broadcastInDim S1700000x64 ![0, 1] bcast_S1700000x1_S1700000x64_0_1
          (broadcastInDim S1700000x1 ![0] bcast_S1700000_S1700000x1_0 (edgeWeight s d)))))
    (broadcastInDim S100000x64 ![0, 1] bcast_S1x64_S100000x64_0_1 (broadcastInDim S1x64 ![1] bcast_S64_S1x64_1 b))

/-- The decoder layer after its product `h` (100,000 × 128): the same with rows of 128. -/
def aggregate128 (h : (⟨S100000x128, .f32⟩ : BufTy).Contents (Elt F)) (s d : (⟨S1700000, .i32⟩ : BufTy).Contents (Elt F))
    (b : (⟨S128, .f32⟩ : BufTy).Contents (Elt F)) : (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf
        (Host.gather gather_S100000x128_S1700000x1_S1700000x128_1_0_n_n_0_1_1128 h
          (broadcastInDim S1700000x1 ![0] bcast_S1700000_S1700000x1_0 (fromEnd s)))
        (broadcastInDim S1700000x128 ![0, 1] bcast_S1700000x1_S1700000x128_0_1
          (broadcastInDim S1700000x1 ![0] bcast_S1700000_S1700000x1_0 (edgeWeight s d)))))
    (broadcastInDim S100000x128 ![0, 1] bcast_S1x128_S100000x128_0_1 (broadcastInDim S1x128 ![1] bcast_S128_S1x128_1 b))

end Cert.Gcn

end
-- ==== Proof.HostReads.lean ====
/-
  What the host segments of the idealized kernel program leave in the buffers the layers read.

  Between the segment boundaries the buffers' contents are folds of the host operations over the
  contents at the previous boundary. Read at one buffer, a fold is the operations' composed term of the
  buffers it depends on, and a buffer no operation of the stretch writes keeps its contents. The
  encoder layer's stretch, read at the embedding's buffer, is the layer function of the encoder
  product, the edge list's two rows and the bias as the stretch found them; likewise the decoder's.
-/
import proofs.«120203_j69320772157915_1_alg».proof.Proof.Gen.KernelIdeal.Frame
import proofs.«120203_j69320772157915_1_alg».proof.Proof.Layer

set_option maxRecDepth 16384

noncomputable section

namespace Cert.Gcn

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## Before the encoder's product: the two rows of the edge list are cut out; the arguments are as launched -/

theorem W1_sources (c : Dev nD) : W1 m ρ c (Proc.devRef .tc main_v1) = edgeSources (m ((c : Thread nD τ).loc main_arg1)) := by
  show StableHlo.after hostOps0 (W0 m ρ c) (Proc.devRef .tc main_v1) = _
  simp only [hostOps0]
  after_results_simp
  rfl

theorem W1_targets (c : Dev nD) : W1 m ρ c (Proc.devRef .tc main_v3) = edgeTargets (m ((c : Thread nD τ).loc main_arg1)) := by
  show StableHlo.after hostOps0 (W0 m ρ c) (Proc.devRef .tc main_v3) = _
  simp only [hostOps0]
  after_results_simp
  rfl

theorem W1_arg (c : Dev nD) (b : Ref sig .tc) (h0 : b ≠ main_v0) (h1 : b ≠ main_v1) (h2 : b ≠ main_v2) (h3 : b ≠ main_v3) :
    W1 m ρ c (Proc.devRef .tc b) = m ((c : Thread nD τ).loc b) := by
  show StableHlo.after hostOps0 (W0 m ρ c) (Proc.devRef .tc b) = _
  refine (StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))).trans rfl

/-! ## The encoder layer's stretch (after the encoder kernel, before the decoder kernel) -/

/-- Read at the embedding's buffer: the layer function of what the stretch found. -/
theorem W5_embedding (c : Dev nD) : W5 m ρ c (Proc.devRef .tc main_v46)
    = aggregate64 (W2 m ρ c (Proc.devRef .tc main_v4)) (withLoops (W2 m ρ c (Proc.devRef .tc main_v1)))
        (withLoops (W2 m ρ c (Proc.devRef .tc main_v3))) (W2 m ρ c (Proc.devRef .tc main_arg3)) := by
  show StableHlo.after hostOps1_2 (StableHlo.after hostOps1_1 (StableHlo.after hostOps1 (W2 m ρ c))) (Proc.devRef .tc main_v46) = _
  simp only [hostOps1_2, hostOps1_1, hostOps1]
  after_results_simp
  rfl

theorem W5_keep_v1 (c : Dev nD) : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  simp only [hostOps1_2, hostOps1_1, hostOps1]
  after_results_simp

theorem W5_keep_v3 (c : Dev nD) : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  simp only [hostOps1_2, hostOps1_1, hostOps1]
  after_results_simp

theorem W5_keep_arg4 (c : Dev nD) : W5 m ρ c (Proc.devRef .tc main_arg4) = W2 m ρ c (Proc.devRef .tc main_arg4) := by
  show StableHlo.after hostOps1_2 (StableHlo.after hostOps1_1 (StableHlo.after hostOps1 (W2 m ρ c))) (Proc.devRef .tc main_arg4) = _
  simp only [hostOps1_2, hostOps1_1, hostOps1]
  after_results_simp

theorem W5_keep_arg5 (c : Dev nD) : W5 m ρ c (Proc.devRef .tc main_arg5) = W2 m ρ c (Proc.devRef .tc main_arg5) := by
  show StableHlo.after hostOps1_2 (StableHlo.after hostOps1_1 (StableHlo.after hostOps1 (W2 m ρ c))) (Proc.devRef .tc main_arg5) = _
  simp only [hostOps1_2, hostOps1_1, hostOps1]
  after_results_simp

/-! ## The decoder layer's stretch (after the decoder kernel) -/

set_option maxHeartbeats 4000000 in
/-- Read at the reconstruction's buffer: the layer function of what the stretch found. -/
theorem W9_reconstruction (c : Dev nD) : W9 m ρ c (Proc.devRef .tc main_v89)
    = aggregate128 (W6 m ρ c (Proc.devRef .tc main_v47)) (withLoops (W6 m ρ c (Proc.devRef .tc main_v1)))
        (withLoops (W6 m ρ c (Proc.devRef .tc main_v3))) (W6 m ρ c (Proc.devRef .tc main_arg5)) := by
  show StableHlo.after hostOps2_2 (StableHlo.after hostOps2_1 (StableHlo.after hostOps2 (W6 m ρ c))) (Proc.devRef .tc main_v89) = _
  simp only [hostOps2_2, hostOps2_1, hostOps2]
  after_results_simp
  rfl

theorem W9_keep_v46 (c : Dev nD) : W9 m ρ c (Proc.devRef .tc main_v46) = W6 m ρ c (Proc.devRef .tc main_v46) := by
  show StableHlo.after hostOps2_2 (StableHlo.after hostOps2_1 (StableHlo.after hostOps2 (W6 m ρ c))) (Proc.devRef .tc main_v46) = _
  simp only [hostOps2_2, hostOps2_1, hostOps2]
  after_results_simp

end Cert.Gcn

end
-- ==== Proof.MatmulBlock.lean ====
/-
  One block of each dense product, read at an index.

  The encoder kernel multiplies a block of 5000 rows of the node features (5000 × 128) by the whole
  encoder weight (128 × 64); the decoder kernel multiplies a block of 5000 rows of the embedding
  (5000 × 64) by the whole decoder weight (64 × 128). Both round their operands to bf16 first, which
  on the extended reals is the identity, and accumulate into a zero splat. So entry (r, q) of a block's
  product is the plain sum over the contracted axis k of left (r, k) times right (k, q).
-/
import proofs.«120203_j69320772157915_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Gcn

open Cert.KernelIdeal Cert.KernelIdeal.Gen Idealize.ShloMosaic Idealize.ShloMosaic.ValueIdx
open scoped BigOperators

/-- On the rows' axis the left index of the contraction follows the output's row. -/
theorem enc_lhs0 (i : S5000x64.Idx) (p : dot_S5000x128_S128x64_S5000x64_1_0_0_1_n_n.contr.Idx) : (dot_S5000x128_S128x64_S5000x64_1_0_0_1_n_n.lhsIdx i p 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
/-- On the columns' axis the right index of the contraction follows the output's column. -/
theorem enc_rhs1 (i : S5000x64.Idx) (p : dot_S5000x128_S128x64_S5000x64_1_0_0_1_n_n.contr.Idx) : (dot_S5000x128_S128x64_S5000x64_1_0_0_1_n_n.rhsIdx i p 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- Entry (r, q) of the encoder kernel's block product: the sum over k of x (r, k) · w (k, q). -/
theorem encBlock_apply (x : Vec Ideal S5000x128 .f32) (w : Vec Ideal S128x64 .f32) (r : Fin 5000) (q : Fin 64) :
    k0_pay1 (F := Ideal) x w (ix2 r q) = ∑ k : Fin 128, x (ix2 r k) * w (ix2 k q) := by
  unfold k0_pay1
  refine (Ideal.matmul_constant_zero_apply dot_S5000x128_S128x64_S5000x64_1_0_0_1_n_n none
    (truncf .bf16 x bitsLt_bf16_f32) (truncf .bf16 w bitsLt_bf16_f32) (ix2 r q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r q) ((contrEquiv1 dot_S5000x128_S128x64_S5000x64_1_0_0_1_n_n 128 rfl rfl).symm k) = ix2 r k :=
    funext fun a => Fin.ext (by
      match a with
      | ⟨0, _⟩ => exact enc_lhs0 _ _
      | ⟨1, _⟩ => exact (dot_S5000x128_S128x64_S5000x64_1_0_0_1_n_n.lhsIdx_val_of_single rfl _ _).trans hk)
  have er : dot_S5000x128_S128x64_S5000x64_1_0_0_1_n_n.rhsIdx (ix2 r q) ((contrEquiv1 dot_S5000x128_S128x64_S5000x64_1_0_0_1_n_n 128 rfl rfl).symm k) = ix2 k q :=
    funext fun a => Fin.ext (by
      match a with
      | ⟨0, _⟩ => exact (dot_S5000x128_S128x64_S5000x64_1_0_0_1_n_n.rhsIdx_val_of_single rfl _ _).trans hk
      | ⟨1, _⟩ => exact enc_rhs1 _ _)
  rw [el, er]
  rfl

/-- On the rows' axis the left index of the contraction follows the output's row. -/
theorem dec_lhs0 (i : S5000x128.Idx) (p : dot_S5000x64_S64x128_S5000x128_1_0_0_1_n_n.contr.Idx) : (dot_S5000x64_S64x128_S5000x128_1_0_0_1_n_n.lhsIdx i p 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl
/-- On the columns' axis the right index of the contraction follows the output's column. -/
theorem dec_rhs1 (i : S5000x128.Idx) (p : dot_S5000x64_S64x128_S5000x128_1_0_0_1_n_n.contr.Idx) : (dot_S5000x64_S64x128_S5000x128_1_0_0_1_n_n.rhsIdx i p 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- Entry (r, q) of the decoder kernel's block product: the sum over k of h (r, k) · w (k, q). -/
theorem decBlock_apply (h : Vec Ideal S5000x64 .f32) (w : Vec Ideal S64x128 .f32) (r : Fin 5000) (q : Fin 128) :
    k1_pay1 (F := Ideal) h w (ix2 r q) = ∑ k : Fin 64, h (ix2 r k) * w (ix2 k q) := by
  unfold k1_pay1
  refine (Ideal.matmul_constant_zero_apply dot_S5000x64_S64x128_S5000x128_1_0_0_1_n_n none
    (truncf .bf16 (shapeCast S5000x64 h shapeCasts_S5000x64_S5000x64) bitsLt_bf16_f32) (truncf .bf16 w bitsLt_bf16_f32) (ix2 r q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 r q) ((contrEquiv1 dot_S5000x64_S64x128_S5000x128_1_0_0_1_n_n 64 rfl rfl).symm k) = ix2 r k :=
    funext fun a => Fin.ext (by
      match a with
      | ⟨0, _⟩ => exact dec_lhs0 _ _
      | ⟨1, _⟩ => exact (dot_S5000x64_S64x128_S5000x128_1_0_0_1_n_n.lhsIdx_val_of_single rfl _ _).trans hk)
  have er : dot_S5000x64_S64x128_S5000x128_1_0_0_1_n_n.rhsIdx (ix2 r q) ((contrEquiv1 dot_S5000x64_S64x128_S5000x128_1_0_0_1_n_n 64 rfl rfl).symm k) = ix2 k q :=
    funext fun a => Fin.ext (by
      match a with
      | ⟨0, _⟩ => exact (dot_S5000x64_S64x128_S5000x128_1_0_0_1_n_n.rhsIdx_val_of_single rfl _ _).trans hk
      | ⟨1, _⟩ => exact dec_rhs1 _ _)
  rw [el, er]
  show shapeCast S5000x64 h shapeCasts_S5000x64_S5000x64 (ix2 r k) * w (ix2 k q) = _
  rw [shapeCast_self]

/-! ## The two products as whole arrays -/

/-- The encoder's dense product, 100,000 × 64: entry (n, q) is the sum over k of x (n, k) · w (k, q). -/
def encProduct (x : FVec Ideal S100000x128 .f32) (w : FVec Ideal S128x64 .f32) : FVec Ideal S100000x64 .f32 :=
  fun i => ∑ k : Fin 128, x (ix2 (i 0) k) * w (ix2 k (i 1))

/-- The decoder's dense product, 100,000 × 128: entry (n, q) is the sum over k of h (n, k) · w (k, q). -/
def decProduct (h : FVec Ideal S100000x64 .f32) (w : FVec Ideal S64x128 .f32) : FVec Ideal S100000x128 .f32 :=
  fun i => ∑ k : Fin 64, h (ix2 (i 0) k) * w (ix2 k (i 1))

/-- A block whose row r is row R of x, against a weight whose column q is column Q of w, has at (r, q) the whole
    product's entry (R, Q). -/
theorem encBlock_eq (X : FVec Ideal S100000x128 .f32) (W : FVec Ideal S128x64 .f32)
    (x : Vec Ideal S5000x128 .f32) (w : Vec Ideal S128x64 .f32) (r : Fin 5000) (q : Fin 64) (R : Fin 100000) (Q : Fin 64)
    (hx : ∀ k : Fin 128, x (ix2 r k) = X (ix2 R k)) (hw : ∀ k : Fin 128, w (ix2 k q) = W (ix2 k Q)) :
    k0_pay1 (F := Ideal) x w (ix2 r q) = encProduct X W (ix2 R Q) := by
  rw [encBlock_apply]
  exact Finset.sum_congr rfl fun k _ => by rw [hx k, hw k]

/-- The same for the decoder's product. -/
theorem decBlock_eq (X : FVec Ideal S100000x64 .f32) (W : FVec Ideal S64x128 .f32)
    (x : Vec Ideal S5000x64 .f32) (w : Vec Ideal S64x128 .f32) (r : Fin 5000) (q : Fin 128) (R : Fin 100000) (Q : Fin 128)
    (hx : ∀ k : Fin 64, x (ix2 r k) = X (ix2 R k)) (hw : ∀ k : Fin 64, w (ix2 k q) = W (ix2 k Q)) :
    k1_pay1 (F := Ideal) x w (ix2 r q) = decProduct X W (ix2 R Q) := by
  rw [decBlock_apply]
  exact Finset.sum_congr rfl fun k _ => by rw [hx k, hw k]

end Cert.Gcn

end
-- ==== Proof.EncValue.lean ====
/-
  The encoder kernel's result array is the whole product x · W_enc.

  The kernel runs at 20 grid points. At point t it reads rows 5000·t … 5000·t + 4999 of the left array
  and the whole right array, and writes back the product of the two as rows 5000·t … 5000·t + 4999 of
  its result. Entry by entry that block is the block of ONE array, the whole product (the sum over the
  contracted axis at every entry); the 20 blocks tile the 100,000 rows; so after the kernel the result
  array is the whole product of the two arrays the kernel was entered with.
-/
import proofs.«120203_j69320772157915_1_alg».proof.Proof.Gen.KernelIdeal.Frame
import proofs.«120203_j69320772157915_1_alg».proof.Proof.MatmulBlock

set_option maxRecDepth 16384

noncomputable section

namespace Cert.Gcn

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffers' contents when the kernel is entered: any
variable (V : (c : Dev nD) → (b : Ref sig .tc) → Buf (Elt Ideal) ((c : Thread nD τ).loc b))

theorem encOrigin : (![0, 0] : Fin 2 → Nat) = fun _ => 0 := funext fun a => by fin_cases a <;> rfl

/-- The index maps over the grid: the left window and the result window are at block t on the rows' axis, every other
    block index is zero. -/
theorem encIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 20 row blocks is some point's. -/
theorem encOnto : ∀ b : Fin 20, ∃ t : Fin cfg0.N, win0_2.index t (0 : Fin 2) = b.val ∧ win0_2.index t (1 : Fin 2) = 0 :=
  (by decide +kernel : ∀ b : Fin 20, ∃ t : Fin grid0.N, win0_2.index t (0 : Fin 2) = b.val ∧ win0_2.index t (1 : Fin 2) = 0)

/-- What point t writes back is block t of the whole product of the entry arrays. -/
theorem encFlushed (c : Dev nD) (t : Fin cfg0.N) :
    (dat0 V c).flushed 2 t = ((cfg0.win 2).blk t).view.read (Elt Ideal) (encProduct (V c main_arg0) (V c main_arg2)) := by
  show (cfg0.win 2).cut (grid0.coords t) ((dat0 V c).after 2 t) = _
  rw [after0_2]
  unfold out0_2
  rw [View.canon_unit_zero encOrigin]
  simp only [View.ld_unit_zero (S := S5000x128) encOrigin, View.ld_unit_zero (S := S128x64) encOrigin]
  obtain ⟨e00, e01, e10, e11, e20, e21⟩ := encIdx t
  have ht : t.val < 20 := lt_of_lt_of_eq t.isLt N_0
  funext j
  obtain ⟨r, q, rfl⟩ : ∃ (r : Fin 5000) (q : Fin 64), j = ix2 r q := ⟨j 0, j 1, eq_ix2 j⟩
  have hr : r.val < 5000 := r.isLt
  show k0_pay1 (iblk0 V c 0 t) (iblk0 V c 1 t) (ix2 r q) = encProduct (V c main_arg0) (V c main_arg2) (((cfg0.win 2).blk t).view.emb (ix2 r q))
  have he : ((cfg0.win 2).blk t).view.emb (ix2 r q) = ix2 (⟨t.val * 5000 + r.val, by omega⟩ : Fin 100000) q := by
    funext a; apply Fin.ext
    match a with
    | ⟨0, _⟩ => show win0_2.index t (0 : Fin 2) * 5000 + 1 * r.val = t.val * 5000 + r.val; rw [e20]; omega
    | ⟨1, _⟩ => show win0_2.index t (1 : Fin 2) * 64 + 1 * q.val = q.val; rw [e21]; omega
  rw [he]
  refine encBlock_eq (V c main_arg0) (V c main_arg2) (iblk0 V c 0 t) (iblk0 V c 1 t) r q ⟨t.val * 5000 + r.val, by omega⟩ q
    (fun k => ?_) (fun k => ?_)
  · show V c main_arg0 (((cfg0.win 0).blk t).view.emb (ix2 r k)) = _
    refine congrArg (V c main_arg0) ?_
    funext a; apply Fin.ext
    match a with
    | ⟨0, _⟩ => show win0_0.index t (0 : Fin 2) * 5000 + 1 * r.val = t.val * 5000 + r.val; rw [e00]; omega
    | ⟨1, _⟩ => show win0_0.index t (1 : Fin 2) * 128 + 1 * k.val = k.val; rw [e01]; omega
  · show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; rw [e10]; omega
    | ⟨1, _⟩ => show win0_1.index t (1 : Fin 2) * 64 + 1 * q.val = q.val; rw [e11]; omega

/-- An index of the result array is in point t's block iff each coordinate is in the block's range on its axis. -/
theorem encMemBlk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- The 20 blocks tile the array: row n is in block n / 5000. -/
theorem encCover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, q0, q1⟩ := encOnto ⟨(i 0).val / 5000, by omega⟩
  have q0' : win0_2.index t (0 : Fin 2) = (i 0).val / 5000 := q0
  refine ⟨t, flush0_2 t, ?_⟩
  rw [encMemBlk]
  intro a
  match a with
  | ⟨0, _⟩ => show win0_2.index t (0 : Fin 2) * 5000 ≤ (i 0).val ∧ (i 0).val < win0_2.index t (0 : Fin 2) * 5000 + 5000; rw [q0']; omega
  | ⟨1, _⟩ => show win0_2.index t (1 : Fin 2) * 64 ≤ (i 1).val ∧ (i 1).val < win0_2.index t (1 : Fin 2) * 64 + 64; rw [q1]; omega

/-- After the kernel its result array is the whole product of the two arrays it was entered with. -/
theorem encFinal (c : Dev nD) : (dat0 V c).arrAt 2 cfg0.N = encProduct (V c main_arg0) (V c main_arg2) :=
  (dat0 V c).arrAt_eq_of_cover 2 (encProduct (V c main_arg0) (V c main_arg2)) (fun t _ => encFlushed V c t) encCover

end Cert.Gcn

end
-- ==== Proof.DecValue.lean ====
/-
  The decoder kernel's result array is the whole product (embedding) · W_dec.

  The kernel runs at 20 grid points. At point t it reads rows 5000·t … 5000·t + 4999 of the left array
  and the whole right array, and writes back the product of the two as rows 5000·t … 5000·t + 4999 of
  its result. Entry by entry that block is the block of ONE array, the whole product (the sum over the
  contracted axis at every entry); the 20 blocks tile the 100,000 rows; so after the kernel the result
  array is the whole product of the two arrays the kernel was entered with.
-/
import proofs.«120203_j69320772157915_1_alg».proof.Proof.Gen.KernelIdeal.Frame
import proofs.«120203_j69320772157915_1_alg».proof.Proof.MatmulBlock

set_option maxRecDepth 16384

noncomputable section

namespace Cert.Gcn

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffers' contents when the kernel is entered: any
variable (V : (c : Dev nD) → (b : Ref sig .tc) → Buf (Elt Ideal) ((c : Thread nD τ).loc b))

theorem decOrigin : (![0, 0] : Fin 2 → Nat) = fun _ => 0 := funext fun a => by fin_cases a <;> rfl

/-- The index maps over the grid: the left window and the result window are at block t on the rows' axis, every other
    block index is zero. -/
theorem decIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every one of the 20 row blocks is some point's. -/
theorem decOnto : ∀ b : Fin 20, ∃ t : Fin cfg1.N, win1_2.index t (0 : Fin 2) = b.val ∧ win1_2.index t (1 : Fin 2) = 0 :=
  (by decide +kernel : ∀ b : Fin 20, ∃ t : Fin grid1.N, win1_2.index t (0 : Fin 2) = b.val ∧ win1_2.index t (1 : Fin 2) = 0)

/-- What point t writes back is block t of the whole product of the entry arrays. -/
theorem decFlushed (c : Dev nD) (t : Fin cfg1.N) :
    (dat1 V c).flushed 2 t = ((cfg1.win 2).blk t).view.read (Elt Ideal) (decProduct (V c main_v46) (V c main_arg4)) := by
  show (cfg1.win 2).cut (grid1.coords t) ((dat1 V c).after 2 t) = _
  rw [after1_2]
  unfold out1_2
  rw [View.canon_unit_zero decOrigin]
  simp only [View.ld_unit_zero (S := S5000x64) decOrigin, View.ld_unit_zero (S := S64x128) decOrigin]
  obtain ⟨e00, e01, e10, e11, e20, e21⟩ := decIdx t
  have ht : t.val < 20 := lt_of_lt_of_eq t.isLt N_1
  funext j
  obtain ⟨r, q, rfl⟩ : ∃ (r : Fin 5000) (q : Fin 128), j = ix2 r q := ⟨j 0, j 1, eq_ix2 j⟩
  have hr : r.val < 5000 := r.isLt
  show k1_pay1 (iblk1 V c 0 t) (iblk1 V c 1 t) (ix2 r q) = decProduct (V c main_v46) (V c main_arg4) (((cfg1.win 2).blk t).view.emb (ix2 r q))
  have he : ((cfg1.win 2).blk t).view.emb (ix2 r q) = ix2 (⟨t.val * 5000 + r.val, by omega⟩ : Fin 100000) q := by
    funext a; apply Fin.ext
    match a with
    | ⟨0, _⟩ => show win1_2.index t (0 : Fin 2) * 5000 + 1 * r.val = t.val * 5000 + r.val; rw [e20]; omega
    | ⟨1, _⟩ => show win1_2.index t (1 : Fin 2) * 128 + 1 * q.val = q.val; rw [e21]; omega
  rw [he]
  refine decBlock_eq (V c main_v46) (V c main_arg4) (iblk1 V c 0 t) (iblk1 V c 1 t) r q ⟨t.val * 5000 + r.val, by omega⟩ q
    (fun k => ?_) (fun k => ?_)
  · show V c main_v46 (((cfg1.win 0).blk t).view.emb (ix2 r k)) = _
    refine congrArg (V c main_v46) ?_
    funext a; apply Fin.ext
    match a with
    | ⟨0, _⟩ => show win1_0.index t (0 : Fin 2) * 5000 + 1 * r.val = t.val * 5000 + r.val; rw [e00]; omega
    | ⟨1, _⟩ => show win1_0.index t (1 : Fin 2) * 64 + 1 * k.val = k.val; rw [e01]; omega
  · show V c main_arg4 (((cfg1.win 1).blk t).view.emb (ix2 k q)) = _
    refine congrArg (V c main_arg4) ?_
    funext a; apply Fin.ext
    match a with
    | ⟨0, _⟩ => show win1_1.index t (0 : Fin 2) * 64 + 1 * k.val = k.val; rw [e10]; omega
    | ⟨1, _⟩ => show win1_1.index t (1 : Fin 2) * 128 + 1 * q.val = q.val; rw [e11]; omega

/-- An index of the result array is in point t's block iff each coordinate is in the block's range on its axis. -/
theorem decMemBlk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The 20 blocks tile the array: row n is in block n / 5000. -/
theorem decCover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, q0, q1⟩ := decOnto ⟨(i 0).val / 5000, by omega⟩
  have q0' : win1_2.index t (0 : Fin 2) = (i 0).val / 5000 := q0
  refine ⟨t, flush1_2 t, ?_⟩
  rw [decMemBlk]
  intro a
  match a with
  | ⟨0, _⟩ => show win1_2.index t (0 : Fin 2) * 5000 ≤ (i 0).val ∧ (i 0).val < win1_2.index t (0 : Fin 2) * 5000 + 5000; rw [q0']; omega
  | ⟨1, _⟩ => show win1_2.index t (1 : Fin 2) * 128 ≤ (i 1).val ∧ (i 1).val < win1_2.index t (1 : Fin 2) * 128 + 128; rw [q1]; omega

/-- After the kernel its result array is the whole product of the two arrays it was entered with. -/
theorem decFinal (c : Dev nD) : (dat1 V c).arrAt 2 cfg1.N = decProduct (V c main_v46) (V c main_arg4) :=
  (dat1 V c).arrAt_eq_of_cover 2 (decProduct (V c main_v46) (V c main_arg4)) (fun t _ => decFlushed V c t) decCover

end Cert.Gcn

end
-- ==== Proof.Spec.lean ====
/-
  The two results as functions of the six argument arrays.

  The embedding is the encoder layer applied to the dense product x · W_enc; the reconstruction is the
  decoder layer applied to the dense product (embedding) · W_dec. Both layers use the same edge list.
-/
import proofs.«120203_j69320772157915_1_alg».proof.Proof.Layer
import proofs.«120203_j69320772157915_1_alg».proof.Proof.MatmulBlock

noncomputable section

namespace Cert.Gcn

open Cert.KernelIdeal Cert.KernelIdeal.Gen Idealize.ShloMosaic

/-- The first result, 100,000 × 64. -/
def embedding (x : FVec Ideal S100000x128 .f32) (e : IVec S2x1600000 32) (w : FVec Ideal S128x64 .f32) (b : FVec Ideal S64 .f32) :
    FVec Ideal S100000x64 .f32 :=
  aggregate64 (F := Ideal) (encProduct x w) (withLoops (F := Ideal) (edgeSources (F := Ideal) e)) (withLoops (F := Ideal) (edgeTargets (F := Ideal) e)) b

/-- The second result, 100,000 × 128. -/
def reconstruction (x : FVec Ideal S100000x128 .f32) (e : IVec S2x1600000 32) (w : FVec Ideal S128x64 .f32) (b : FVec Ideal S64 .f32)
    (w' : FVec Ideal S64x128 .f32) (b' : FVec Ideal S128 .f32) : FVec Ideal S100000x128 .f32 :=
  aggregate128 (F := Ideal) (decProduct (embedding x e w b) w') (withLoops (F := Ideal) (edgeSources (F := Ideal) e))
    (withLoops (F := Ideal) (edgeTargets (F := Ideal) e)) b'

end Cert.Gcn

end
-- ==== Proof.KernelValue.lean ====
/-
  The idealized kernel program's two results as functions of the argument arrays.

  Walking the segment boundaries: before the encoder kernel the host cuts the two rows out of the edge
  list; the encoder kernel leaves the whole product x · W_enc in its result array and nothing else
  changed; the encoder layer's host operations make the embedding of it; the decoder kernel, entered
  with the embedding and W_dec, leaves their whole product; the decoder layer's host operations make
  the reconstruction. A buffer no segment in between writes is still what it was.
-/
import proofs.«120203_j69320772157915_1_alg».proof.Proof.HostReads
import proofs.«120203_j69320772157915_1_alg».proof.Proof.EncValue
import proofs.«120203_j69320772157915_1_alg».proof.Proof.DecValue
import proofs.«120203_j69320772157915_1_alg».proof.Proof.Spec

set_option maxRecDepth 16384

noncomputable section

namespace Cert.Gcn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## After the encoder kernel -/

theorem W2_sources (c : Dev nD) : W2 m ρ c (Proc.devRef .tc main_v1) = edgeSources (F := Ideal) (m ((c : Thread nD τ).loc main_arg1)) :=
  (W2_of_ne m ρ c main_v1 (by decide)).trans (W1_sources m ρ c)
theorem W2_targets (c : Dev nD) : W2 m ρ c (Proc.devRef .tc main_v3) = edgeTargets (F := Ideal) (m ((c : Thread nD τ).loc main_arg1)) :=
  (W2_of_ne m ρ c main_v3 (by decide)).trans (W1_targets m ρ c)
theorem W2_arg3 (c : Dev nD) : W2 m ρ c (Proc.devRef .tc main_arg3) = (m ((c : Thread nD τ).loc main_arg3)) :=
  (W2_of_ne m ρ c main_arg3 (by decide)).trans (W1_arg m ρ c main_arg3 (by decide) (by decide) (by decide) (by decide))
theorem W2_arg4 (c : Dev nD) : W2 m ρ c (Proc.devRef .tc main_arg4) = (m ((c : Thread nD τ).loc main_arg4)) :=
  (W2_of_ne m ρ c main_arg4 (by decide)).trans (W1_arg m ρ c main_arg4 (by decide) (by decide) (by decide) (by decide))
theorem W2_arg5 (c : Dev nD) : W2 m ρ c (Proc.devRef .tc main_arg5) = (m ((c : Thread nD τ).loc main_arg5)) :=
  (W2_of_ne m ρ c main_arg5 (by decide)).trans (W1_arg m ρ c main_arg5 (by decide) (by decide) (by decide) (by decide))

/-- The encoder kernel's result array holds the whole product of the features and the encoder weight. -/
theorem W2_product (c : Dev nD) : W2 m ρ c (Proc.devRef .tc main_v4) = encProduct (m ((c : Thread nD τ).loc main_arg0)) (m ((c : Thread nD τ).loc main_arg2)) := by
  refine ((W2_arr m ρ c 2).trans (encFinal (V1 m ρ) c)).trans ?_
  show encProduct (W1 m ρ c (Proc.devRef .tc main_arg0)) (W1 m ρ c (Proc.devRef .tc main_arg2)) = _
  rw [W1_arg m ρ c main_arg0 (by decide) (by decide) (by decide) (by decide), W1_arg m ρ c main_arg2 (by decide) (by decide) (by decide) (by decide)]

/-! ## After the encoder layer's host operations -/

theorem W5_value (c : Dev nD) : W5 m ρ c (Proc.devRef .tc main_v46)
    = embedding (m ((c : Thread nD τ).loc main_arg0)) (m ((c : Thread nD τ).loc main_arg1)) (m ((c : Thread nD τ).loc main_arg2)) (m ((c : Thread nD τ).loc main_arg3)) := by
  rw [W5_embedding, W2_product, W2_sources, W2_targets, W2_arg3]
  rfl

/-! ## After the decoder kernel -/

/-- The embedding is an input of the decoder kernel: its buffer comes out as it went in. -/
theorem W6_embedding (c : Dev nD) : W6 m ρ c (Proc.devRef .tc main_v46) = W5 m ρ c (Proc.devRef .tc main_v46) :=
  (W6_arr m ρ c 0).trans (((dat1 (V5 m ρ) c).arrAt_in 0 rfl _).trans (A_eq1 (V5 m ρ) c 0))

theorem W6_sources (c : Dev nD) : W6 m ρ c (Proc.devRef .tc main_v1) = edgeSources (F := Ideal) (m ((c : Thread nD τ).loc main_arg1)) :=
  (W6_of_ne m ρ c main_v1 (by decide)).trans ((W5_keep_v1 m ρ c).trans (W2_sources m ρ c))
theorem W6_targets (c : Dev nD) : W6 m ρ c (Proc.devRef .tc main_v3) = edgeTargets (F := Ideal) (m ((c : Thread nD τ).loc main_arg1)) :=
  (W6_of_ne m ρ c main_v3 (by decide)).trans ((W5_keep_v3 m ρ c).trans (W2_targets m ρ c))
theorem W6_arg5 (c : Dev nD) : W6 m ρ c (Proc.devRef .tc main_arg5) = (m ((c : Thread nD τ).loc main_arg5)) :=
  (W6_of_ne m ρ c main_arg5 (by decide)).trans ((W5_keep_arg5 m ρ c).trans (W2_arg5 m ρ c))

/-- The decoder kernel's result array holds the whole product of the embedding and the decoder weight. -/
theorem W6_product (c : Dev nD) : W6 m ρ c (Proc.devRef .tc main_v47)
    = decProduct (embedding (m ((c : Thread nD τ).loc main_arg0)) (m ((c : Thread nD τ).loc main_arg1)) (m ((c : Thread nD τ).loc main_arg2)) (m ((c : Thread nD τ).loc main_arg3))) (m ((c : Thread nD τ).loc main_arg4)) := by
  refine ((W6_arr m ρ c 2).trans (decFinal (V5 m ρ) c)).trans ?_
  show decProduct (W5 m ρ c (Proc.devRef .tc main_v46)) (W5 m ρ c (Proc.devRef .tc main_arg4)) = _
  rw [W5_value, W5_keep_arg4, W2_arg4]

/-! ## At the end -/

/-- The first result buffer ends holding the embedding. -/
theorem kernel_embedding (c : Dev nD) : W9 m ρ c (Proc.devRef .tc main_v46)
    = embedding (m ((c : Thread nD τ).loc main_arg0)) (m ((c : Thread nD τ).loc main_arg1)) (m ((c : Thread nD τ).loc main_arg2)) (m ((c : Thread nD τ).loc main_arg3)) :=
  (W9_keep_v46 m ρ c).trans ((W6_embedding m ρ c).trans (W5_value m ρ c))

/-- The second result buffer ends holding the reconstruction. -/
theorem kernel_reconstruction (c : Dev nD) : W9 m ρ c (Proc.devRef .tc main_v89)
    = reconstruction (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W9_reconstruction, W6_product, W6_sources, W6_targets, W6_arg5]
  rfl

end Cert.Gcn

end
-- ==== Proof.RefProduct.lean ====
/-
  The reference's two dense products, read at an index.

  On the extended reals the host's dot_general of a 100,000 × K array and a K × Q array, contracting the
  one shared axis, has at (n, q) the sum over k of left (n, k) · right (k, q): the whole products the
  kernels' blocks are cut from.
-/
import proofs.«120203_j69320772157915_1_alg».proof.Proof.Gen.ReferenceIdeal
import proofs.«120203_j69320772157915_1_alg».proof.Proof.MatmulBlock

noncomputable section

namespace Cert.Gcn

open Idealize.ShloMosaic Idealize.ShloMosaic.ValueIdx
open scoped BigOperators

theorem refEnc_lhs0 (i : Cert.ReferenceIdeal.S100000x64.Idx) (p : Cert.ReferenceIdeal.dot_S100000x128_S128x64_S100000x64_1_0_0_1_n_n.contr.Idx) : (Cert.ReferenceIdeal.dot_S100000x128_S128x64_S100000x64_1_0_0_1_n_n.lhsIdx i p 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide),
    dif_pos (show (0 : Fin Cert.ReferenceIdeal.S100000x128.rank) ∈ Cert.ReferenceIdeal.dot_S100000x128_S128x64_S100000x64_1_0_0_1_n_n.lhsNonContracting by decide)]
  rfl
theorem refEnc_rhs1 (i : Cert.ReferenceIdeal.S100000x64.Idx) (p : Cert.ReferenceIdeal.dot_S100000x128_S128x64_S100000x64_1_0_0_1_n_n.contr.Idx) : (Cert.ReferenceIdeal.dot_S100000x128_S128x64_S100000x64_1_0_0_1_n_n.rhsIdx i p 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide),
    dif_pos (show (1 : Fin Cert.ReferenceIdeal.S128x64.rank) ∈ Cert.ReferenceIdeal.dot_S100000x128_S128x64_S100000x64_1_0_0_1_n_n.rhsNonContracting by decide)]
  rfl

/-- The reference's first dot_general is the encoder product. -/
theorem refEncProduct (x : FVec Ideal Cert.ReferenceIdeal.S100000x128 .f32) (w : FVec Ideal Cert.ReferenceIdeal.S128x64 .f32) :
    Host.dotGeneral Cert.ReferenceIdeal.dot_S100000x128_S128x64_S100000x64_1_0_0_1_n_n none x w = encProduct x w := by
  funext i
  obtain ⟨n, q, rfl⟩ : ∃ (n : Fin 100000) (q : Fin 64), i = ix2 n q := ⟨i 0, i 1, eq_ix2 i⟩
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 n q) ((contrEquiv1 Cert.ReferenceIdeal.dot_S100000x128_S128x64_S100000x64_1_0_0_1_n_n 128 rfl rfl).symm k) = ix2 n k :=
    funext fun a => Fin.ext (by
      match a with
      | ⟨0, _⟩ => exact refEnc_lhs0 _ _
      | ⟨1, _⟩ => exact (Cert.ReferenceIdeal.dot_S100000x128_S128x64_S100000x64_1_0_0_1_n_n.lhsIdx_val_of_single rfl _ _).trans hk)
  have er : Cert.ReferenceIdeal.dot_S100000x128_S128x64_S100000x64_1_0_0_1_n_n.rhsIdx (ix2 n q) ((contrEquiv1 Cert.ReferenceIdeal.dot_S100000x128_S128x64_S100000x64_1_0_0_1_n_n 128 rfl rfl).symm k) = ix2 k q :=
    funext fun a => Fin.ext (by
      match a with
      | ⟨0, _⟩ => exact (Cert.ReferenceIdeal.dot_S100000x128_S128x64_S100000x64_1_0_0_1_n_n.rhsIdx_val_of_single rfl _ _).trans hk
      | ⟨1, _⟩ => exact refEnc_rhs1 _ _)
  rw [el, er]

theorem refDec_lhs0 (i : Cert.ReferenceIdeal.S100000x128.Idx) (p : Cert.ReferenceIdeal.dot_S100000x64_S64x128_S100000x128_1_0_0_1_n_n.contr.Idx) : (Cert.ReferenceIdeal.dot_S100000x64_S64x128_S100000x128_1_0_0_1_n_n.lhsIdx i p 0).val = (i 0).val := by
  unfold DotDims.lhsIdx
  rw [dif_neg (show ¬(0 : Fin Cert.ReferenceIdeal.S100000x64.rank) ∈ Cert.ReferenceIdeal.dot_S100000x64_S64x128_S100000x128_1_0_0_1_n_n.lhsBatch by decide),
    dif_pos (show (0 : Fin Cert.ReferenceIdeal.S100000x64.rank) ∈ Cert.ReferenceIdeal.dot_S100000x64_S64x128_S100000x128_1_0_0_1_n_n.lhsNonContracting by decide)]
  rfl
theorem refDec_rhs1 (i : Cert.ReferenceIdeal.S100000x128.Idx) (p : Cert.ReferenceIdeal.dot_S100000x64_S64x128_S100000x128_1_0_0_1_n_n.contr.Idx) : (Cert.ReferenceIdeal.dot_S100000x64_S64x128_S100000x128_1_0_0_1_n_n.rhsIdx i p 1).val = (i 1).val := by
  unfold DotDims.rhsIdx
  rw [dif_neg (show ¬(1 : Fin Cert.ReferenceIdeal.S64x128.rank) ∈ Cert.ReferenceIdeal.dot_S100000x64_S64x128_S100000x128_1_0_0_1_n_n.rhsBatch by decide),
    dif_pos (show (1 : Fin Cert.ReferenceIdeal.S64x128.rank) ∈ Cert.ReferenceIdeal.dot_S100000x64_S64x128_S100000x128_1_0_0_1_n_n.rhsNonContracting by decide)]
  rfl

/-- The reference's second dot_general is the decoder product. -/
theorem refDecProduct (h : FVec Ideal Cert.ReferenceIdeal.S100000x64 .f32) (w : FVec Ideal Cert.ReferenceIdeal.S64x128 .f32) :
    Host.dotGeneral Cert.ReferenceIdeal.dot_S100000x64_S64x128_S100000x128_1_0_0_1_n_n none h w = decProduct h w := by
  funext i
  obtain ⟨n, q, rfl⟩ : ∃ (n : Fin 100000) (q : Fin 128), i = ix2 n q := ⟨i 0, i 1, eq_ix2 i⟩
  simp only [Host.dotGeneral]
  rw [Ideal.dotGeneral_apply, ← Equiv.sum_comp (contrEquiv1 Cert.ReferenceIdeal.dot_S100000x64_S64x128_S100000x128_1_0_0_1_n_n 64 rfl rfl).symm]
  refine Finset.sum_congr rfl fun k _ => ?_
  have hk := contrEquiv1_symm_val Cert.ReferenceIdeal.dot_S100000x64_S64x128_S100000x128_1_0_0_1_n_n 64 rfl rfl k
  have el : Cert.ReferenceIdeal.dot_S100000x64_S64x128_S100000x128_1_0_0_1_n_n.lhsIdx (ix2 n q) ((contrEquiv1 Cert.ReferenceIdeal.dot_S100000x64_S64x128_S100000x128_1_0_0_1_n_n 64 rfl rfl).symm k) = ix2 n k :=
    funext fun a => Fin.ext (by
      match a with
      | ⟨0, _⟩ => exact refDec_lhs0 _ _
      | ⟨1, _⟩ => exact (Cert.ReferenceIdeal.dot_S100000x64_S64x128_S100000x128_1_0_0_1_n_n.lhsIdx_val_of_single rfl _ _).trans hk)
  have er : Cert.ReferenceIdeal.dot_S100000x64_S64x128_S100000x128_1_0_0_1_n_n.rhsIdx (ix2 n q) ((contrEquiv1 Cert.ReferenceIdeal.dot_S100000x64_S64x128_S100000x128_1_0_0_1_n_n 64 rfl rfl).symm k) = ix2 k q :=
    funext fun a => Fin.ext (by
      match a with
      | ⟨0, _⟩ => exact (Cert.ReferenceIdeal.dot_S100000x64_S64x128_S100000x128_1_0_0_1_n_n.rhsIdx_val_of_single rfl _ _).trans hk
      | ⟨1, _⟩ => exact refDec_rhs1 _ _)
  rw [el, er]

end Cert.Gcn

end
-- ==== Proof.RefValue.lean ====
/-
  The reference's two results as the same functions of the argument arrays.

  The reference's run ends with each result at the composed term of its host operations. Past each
  dot_general that term is, operation for operation, the layer function of the product, the two rows
  of the edge list and the bias; and each dot_general is the whole dense product. So the reference's
  first result is the embedding and its second the reconstruction, as specified.
-/
import proofs.«120203_j69320772157915_1_alg».proof.Proof.RefRun
import proofs.«120203_j69320772157915_1_alg».proof.Proof.Spec
import proofs.«120203_j69320772157915_1_alg».proof.Proof.RefProduct

noncomputable section

namespace Cert.Gcn

open Idealize.ShloMosaic Idealize.ShloMosaic.TcCoe Idealize.SL.Sem

variable (m : (ℓ : Loc Cert.ReferenceIdeal.nD Cert.ReferenceIdeal.τ Cert.ReferenceIdeal.sig) → Buf (Elt Ideal) ℓ)

set_option maxHeartbeats 2000000 in
/-- The first result's term is the encoder layer of the first dot_general. -/
theorem ref_embedding_layer (c : Dev Cert.ReferenceIdeal.nD) : Cert.ReferenceIdeal.ValueP.res_main_v46 (F := Ideal) m c
    = aggregate64 (F := Ideal)
        (Host.dotGeneral (F := Ideal) (φ₁ := .f32) (φ₂ := .f32) Cert.ReferenceIdeal.dot_S100000x128_S128x64_S100000x64_1_0_0_1_n_n none (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)))
        (withLoops (F := Ideal) (edgeSources (F := Ideal) (m ((c.tc : Thread Cert.ReferenceIdeal.nD Cert.ReferenceIdeal.τ).loc Cert.ReferenceIdeal.main_arg1))))
        (withLoops (F := Ideal) (edgeTargets (F := Ideal) (m ((c.tc : Thread Cert.ReferenceIdeal.nD Cert.ReferenceIdeal.τ).loc Cert.ReferenceIdeal.main_arg1))))
        (m ((c.tc : Thread Cert.ReferenceIdeal.nD Cert.ReferenceIdeal.τ).loc Cert.ReferenceIdeal.main_arg3)) := by
  unfold Cert.ReferenceIdeal.ValueP.res_main_v46
  rfl

set_option maxHeartbeats 4000000 in
/-- The second result's term is the decoder layer of the second dot_general, taken of the first result's term. -/
theorem ref_reconstruction_layer (c : Dev Cert.ReferenceIdeal.nD) : Cert.ReferenceIdeal.ValueP.res_main_v89 (F := Ideal) m c
    = aggregate128 (F := Ideal)
        (Host.dotGeneral (F := Ideal) (φ₁ := .f32) (φ₂ := .f32) Cert.ReferenceIdeal.dot_S100000x64_S64x128_S100000x128_1_0_0_1_n_n none (Cert.ReferenceIdeal.ValueP.res_main_v46 (F := Ideal) m c) (m ((c.tc : Thread Cert.ReferenceIdeal.nD Cert.ReferenceIdeal.τ).loc Cert.ReferenceIdeal.main_arg4)))
        (withLoops (F := Ideal) (edgeSources (F := Ideal) (m ((c.tc : Thread Cert.ReferenceIdeal.nD Cert.ReferenceIdeal.τ).loc Cert.ReferenceIdeal.main_arg1))))
        (withLoops (F := Ideal) (edgeTargets (F := Ideal) (m ((c.tc : Thread Cert.ReferenceIdeal.nD Cert.ReferenceIdeal.τ).loc Cert.ReferenceIdeal.main_arg1))))
        (m ((c.tc : Thread Cert.ReferenceIdeal.nD Cert.ReferenceIdeal.τ).loc Cert.ReferenceIdeal.main_arg5)) := by
  unfold Cert.ReferenceIdeal.ValueP.res_main_v89 Cert.ReferenceIdeal.ValueP.res_main_v46
  rfl

/-- The reference's first result is the embedding. -/
theorem ref_embedding (c : Dev Cert.ReferenceIdeal.nD) : Cert.ReferenceIdeal.ValueP.res_main_v46 (F := Ideal) m c
    = embedding (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) := by
  rw [ref_embedding_layer m c, refEncProduct]
  rfl

/-- The reference's second result is the reconstruction. -/
theorem ref_reconstruction (c : Dev Cert.ReferenceIdeal.nD) : Cert.ReferenceIdeal.ValueP.res_main_v89 (F := Ideal) m c
    = reconstruction (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  rw [ref_reconstruction_layer m c, ref_embedding m c, refDecProduct]
  rfl

end Cert.Gcn

end
-- ==== Proof.lean ====
/-
  A two-layer graph convolution (an encoder 128 → 64 and a decoder 64 → 128 over 100,000 nodes and
  1,600,000 edges with self loops), whose dense products x · W run as pipelined kernels on blocks of
  5000 rows with operands rounded to bf16, against the same network with each product one whole
  dot_general.

  On the extended reals the rounding is the identity and a block of a product is the block of the whole
  product, so each kernel leaves in its result array exactly the reference's dot_general. Everything after a
  product — the degrees, their inverse square roots, the gathers, the weighting, the scatter-add, the bias —
  is the same sequence of host operations in both programs, and is carried as one function of the product
  (Proof/Layer.lean) that is never opened. Hence both programs end with
      embedding      = layer₆₄ (x · W_enc),
      reconstruction = layer₁₂₈ (embedding · W_dec),
  as extended reals, index by index (Proof/Spec.lean). No algebraic law beyond reading a sum is used, and
  so the finiteness of the inputs is never needed.

  The three frames are the generated ones (the reference's from its run); the idealization rewrote no
  operation, so `preserves` is trivial.
-/
import proofs.«120203_j69320772157915_1_alg».proof.Defs
import proofs.«120203_j69320772157915_1_alg».proof.Proof.Gen.Kernel
import proofs.«120203_j69320772157915_1_alg».proof.Proof.Gen.Kernel.Skeleton
import proofs.«120203_j69320772157915_1_alg».proof.Proof.Gen.Kernel.Launch
import proofs.«120203_j69320772157915_1_alg».proof.Proof.Gen.Kernel.Points
import proofs.«120203_j69320772157915_1_alg».proof.Proof.Gen.Kernel.Frame
import proofs.«120203_j69320772157915_1_alg».proof.Proof.Gen.KernelIdeal
import proofs.«120203_j69320772157915_1_alg».proof.Proof.Gen.KernelIdeal.Skeleton
import proofs.«120203_j69320772157915_1_alg».proof.Proof.Gen.KernelIdeal.Launch
import proofs.«120203_j69320772157915_1_alg».proof.Proof.Gen.KernelIdeal.Points
import proofs.«120203_j69320772157915_1_alg».proof.Proof.Gen.KernelIdeal.Frame
import proofs.«120203_j69320772157915_1_alg».proof.Proof.Gen.ReferenceIdeal
import proofs.«120203_j69320772157915_1_alg».proof.Proof.Gen.Pre_finite_inputs
import proofs.«120203_j69320772157915_1_alg».proof.Proof.KernelRun
import proofs.«120203_j69320772157915_1_alg».proof.Proof.KernelValue
import proofs.«120203_j69320772157915_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs, run from memories that agree on the six arguments, end with the embedding and the
    reconstruction of those arguments in their result buffers. -/
theorem algebraic : Cert.algebraic_KernelIdeal_ReferenceIdeal := by
  intro m ρ m' ρ' _ hagree
  refine ⟨fun c => Cert.Gcn.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Gcn.reconstruction (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.kernel_embedding m ρ c), (h c).2.1.trans (Cert.Gcn.kernel_reconstruction m ρ c), (h c).2.2⟩)
      (Cert.Gcn.run_results m ρ)
  · refine (θ_run Cert.ReferenceIdeal.defs _ _).mono
      (fun r h c => ⟨(h c).1.trans ?_, (h c).2.1.trans ?_, (h c).2.2⟩)
      (Cert.ReferenceIdeal.ValueP.run (F := Ideal) m' ρ')
    · rw [Cert.Gcn.ref_embedding m' c, (hagree c).1, (hagree c).2.1, (hagree c).2.2.1, (hagree c).2.2.2.1]
    · rw [Cert.Gcn.ref_reconstruction m' c, (hagree c).1, (hagree c).2.1, (hagree c).2.2.1, (hagree c).2.2.2.1,
        (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
